-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S500000x128 .f32) (main_arg1 : IVec S2x500000 32) (main_arg2 : FVec F S128x128 .f32) (main_arg3 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S500000x128 : Shape := ⟨2, ![500000, 128]⟩
abbrev S2x500000 : Shape := ⟨2, ![2, 500000]⟩
abbrev S128x128 : Shape := ⟨2, ![128, 128]⟩
abbrev S128 : Shape := ⟨1, ![128]⟩
abbrev S10000x128 : Shape := ⟨2, ![10000, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩

abbrev nBuf : Space → Nat
  | .hbm => 73
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S500000x128, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000, .f32⟩
  | .hbm, ⟨12, _⟩ => ⟨S_, .f32⟩
  | .hbm, ⟨13, _⟩ => ⟨S500000, .f32⟩
  | .hbm, ⟨14, _⟩ => ⟨S500000x1, .i32⟩
  | .hbm, ⟨15, _⟩ => ⟨S500000, .f32⟩
  | .hbm, ⟨16, _⟩ => ⟨S_, .f32⟩
  | .hbm, ⟨17, _⟩ => ⟨S500000, .f32⟩
  | .hbm, ⟨18, _⟩ => ⟨S500000, .i1⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000, .f32⟩
  | .hbm, ⟨49, _⟩ => ⟨S500000, .f32⟩
  | .hbm, ⟨50, _⟩ => ⟨S500000x1, .f32⟩
  | .hbm, ⟨51, _⟩ => ⟨S500000x128, .f32⟩
  | .hbm, ⟨52, _⟩ => ⟨S500000x128, .f32⟩
  | .hbm, ⟨53, _⟩ => ⟨S_, .f32⟩
  | .hbm, ⟨54, _⟩ => ⟨S500000x128, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S10000x128_S128x128_S10000x128_1_0_0_1_n_n_wf : DotDims.WF S10000x128 S128x128 S10000x128 [1] [0] [0] [1] [] []
  scatter_S500000_S500000x1_S500000_n_0_0_1_wf : ScatterDims.WF S500000 S500000x1 S500000 [] [0] [0] 1
  gather_S500000_S500000x1_S500000_n_0_n_n_0_1_1_wf : GatherDims.WF S500000 S500000x1 S500000 [] [0] [] [0] [] 1 ![1]
  gather_S500000x128_S500000x1_S500000x128_1_0_n_n_0_1_1128_wf : GatherDims.WF S500000x128 S500000x1 S500000x128 [1] [0] [] [0] [] 1 ![1, 128]
  scatter_S500000x128_S500000x1_S500000x128_1_0_0_1_wf : ScatterDims.WF S500000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def gather_S500000_S500000x1_S500000_n_0_n_n_0_1_1 : GatherDims S500000 S500000x1 S500000 where
  offsetDims := []
  collapsedSliceDims := [0]
  operandBatchingDims := []
  startIndicesBatchingDims := []
  startIndexMap := [0]
  indexVectorDim := 1
  sliceSizes := ![1]
  wf := gather_S500000_S500000x1_S500000_n_0_n_n_0_1_1_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S1x128 : Shape := ⟨2, ![1, 128]⟩
abbrev S_ : Shape := ⟨0, ![]⟩
abbrev S500000x1 : Shape := ⟨2, ![500000, 1]⟩

abbrev nBuf : Space → Nat
  | .hbm => 76
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S1x500000, .i32⟩
  | .hbm, ⟨5, _⟩ => ⟨S500000, .i32⟩
  | .hbm, ⟨6, _⟩ => ⟨S1x500000, .i32⟩
  | .hbm, ⟨7, _⟩ => ⟨S500000, .i32⟩
  | .hbm, ⟨8, _⟩ => ⟨S128x128, .f32⟩
  | .hbm, ⟨9, _⟩ => ⟨S500000x128, .f32⟩
  | .hbm, ⟨10, _⟩ => ⟨S1x128, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S500000, .f32⟩
  | .hbm, ⟨15, _⟩ => ⟨S_, .f32⟩
  | .hbm, ⟨16, _⟩ => ⟨S500000, .f32⟩
  | .hbm, ⟨17, _⟩ => ⟨S500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .i1⟩
  | .hbm, ⟨25, _⟩ => ⟨S_, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S500000, .f32⟩
  | .hbm, ⟨30, _⟩ => ⟨S_, .f32⟩
  | .hbm, ⟨31, _⟩ => ⟨S_, .f32⟩
  | .hbm, ⟨32, _⟩ => ⟨S500000, .f32⟩
  | .hbm, ⟨33, _⟩ => ⟨S500000, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000, .f32⟩
  | .hbm, ⟨52, _⟩ => ⟨S500000, .f32⟩
  | .hbm, ⟨53, _⟩ => ⟨S500000x1, .f32⟩
  | .hbm, ⟨54, _⟩ => ⟨S500000x128, .f32⟩
  | .hbm, ⟨55, _⟩ => ⟨S500000x128, .f32⟩
  | .hbm, ⟨56, _⟩ => ⟨S_, .f32⟩
  | .hbm, ⟨57, _⟩ => ⟨S500000x128, .f32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x128, .f32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S500000x128_S128x128_S500000x128_1_0_0_1_n_n_wf : DotDims.WF S500000x128 S128x128 S500000x128 [1] [0] [0] [1] [] []
  scatter_S500000_S500000x1_S500000_n_0_0_1_wf : ScatterDims.WF S500000 S500000x1 S500000 [] [0] [0] 1
  gather_S500000_S500000x1_S500000_n_0_n_n_0_1_1_wf : GatherDims.WF S500000 S500000x1 S500000 [] [0] [] [0] [] 1 ![1]
  gather_S500000x128_S500000x1_S500000x128_1_0_n_n_0_1_1128_wf : GatherDims.WF S500000x128 S500000x1 S500000x128 [1] [0] [] [0] [] 1 ![1, 128]
  scatter_S500000x128_S500000x1_S500000x128_1_0_0_1_wf : ScatterDims.WF S500000x128 S500000x1 S500000x128 [1] [0] [0] 1

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def gather_S500000_S500000x1_S500000_n_0_n_n_0_1_1 : GatherDims S500000 S500000x1 S500000 where
  offsetDims := []
  collapsedSliceDims := [0]
  operandBatchingDims := []
  startIndicesBatchingDims := []
  startIndexMap := [0]
  indexVectorDim := 1
  sliceSizes := ![1]
  wf := gather_S500000_S500000x1_S500000_n_0_n_n_0_1_1_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf

class Facts : Prop extends Facts₀ where

variable [Facts]
-- ==== Proof.FrameKernel.lean ====
/-
  The frame of `Kernel`: every weakly fair execution of its entry function terminates without a fault and leaves the four
  argument arrays as they were, stated for any reading of the floats.

  The entry function is one host line (the transpose of the weight matrix), one pipelined region, and sixty-seven host
  lines after it. The region walks fifty grid points; at point `t` it is handed rows `10000·t … 10000·t + 9999` of the
  feature matrix, the whole transposed weight matrix and the whole bias vector, and it stores one `10000 × 128` block:
  the product of the feature rows with the transposed weights, plus the bias on every row. It keeps nothing between
  points and overwrites its output block whole, so what the block holds afterwards is a function of the three input
  blocks alone (`linBlock`). The lines after the region read that result and the edge list and write only buffers of
  their own: none of them writes an argument, the transposed weights or the region's result. Hence the arguments end
  unchanged, and every other buffer ends at what those lines compute from the region's exit contents.
-/
import proofs.«121206_j56573309223902_1_alg».proof.Proof.Gen.Kernel.Launch
import proofs.«121206_j56573309223902_1_alg».proof.Proof.Gen.Kernel.Skeleton
import proofs.«121206_j56573309223902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The buffers' contents when the region is entered: the launch contents after the one line before it (the transposed
    weights written, nothing else touched). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The sixty-seven lines after the region, in the five stretches the entry function is cut into (two of them are the
    bodies of the two calls of the select helper). -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The entry function is the line before the region, the region, and then the later lines as the region's
    continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later line touches only unscoped buffers of the core: the region's arrays or buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None of them allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A reference none of the later lines writes: each line writes its own result buffer only, so it is enough that the
    reference is none of those sixty-seven results. -/
theorem tail_not_written (b : Ref sig .tc)
    (hb : ((tailOps (F := F)).flatten).Forall fun op => Proc.devRef .tc b ∉ op.writes) :
    ∀ ops ∈ (tailOps : List (List (HloOp τ sig (Elt F)))), ∀ op ∈ ops, Proc.devRef .tc b ∉ op.writes :=
  fun ops hops op hop => (List.forall_iff_forall_mem.mp hb) op (List.mem_flatten.mpr ⟨ops, hops, hop⟩)

/-- No later line writes `b`, for `b` an argument, the transposed weights or the region's result (decided line by line). -/
theorem tail_keeps_ref (b : Ref sig .tc) (hb : b = main_arg0 ∨ b = main_arg1 ∨ b = main_arg2 ∨ b = main_arg3 ∨ b = main_v0 ∨ b = main_v1) :
    ((tailOps (F := F)).flatten).Forall fun op => Proc.devRef .tc b ∉ op.writes := by
  rcases hb with rfl | rfl | rfl | rfl | rfl | rfl
  all_goals
    simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- In particular no later line writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop w
  refine tail_not_written _ (tail_keeps_ref _ ?_) ops hops op hop
  fin_cases w
  · exact Or.inl rfl
  · exact Or.inr (Or.inr (Or.inr (Or.inr (Or.inl rfl))))
  · exact Or.inr (Or.inr (Or.inr (Or.inl rfl)))
  · exact Or.inr (Or.inr (Or.inr (Or.inr (Or.inr rfl))))

/-- The line before the region writes the transposed weights only: an argument is found as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- An argument the region does not stage (the edge list, the weight matrix) ends as launched: no later line writes it,
    and it is no array of the region. -/
theorem W_arg (dats : (p : Fin _) → (c : Dev nD) → Dat τ (Elt F) Unit ℕ (UR sig nD τ) ℕ (cfgs p) c) (c : Dev nD)
    (b : Ref sig .tc) (hb : b = main_arg1 ∨ b = main_arg2) :
    Pipeline.afterTail₀ cfgs dats 0 (V0 m) tailOps c b = m ((c : Thread nD τ).loc b) := by
  have hw : ∀ w, Pipeline.arrRef spec0 w ≠ b := by
    rcases hb with rfl | rfl <;> exact (by decide)
  have hv : b ≠ main_v0 := by
    rcases hb with rfl | rfl <;> exact (by decide)
  unfold Pipeline.afterTail₀
  rw [StableHlo.after_of_forall_not_mem (b := Proc.devRef .tc b) _ _ (List.forall_iff_forall_mem.mp
      (tail_keeps_ref b (by rcases hb with rfl | rfl; exact Or.inr (Or.inl rfl); exact Or.inr (Or.inr (Or.inl rfl))))),
    Pipeline.withArrays_of_ne _ c (V0 m c) _ b hw]
  exact V_arg m c b hv

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not (the
    weights and the bias are fetched at the first point only, and their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- At a final state where the region's arrays are at what the proof data say and every other buffer at what the later
    lines leave, the four arguments are as launched: the feature matrix and the bias are input arrays of the region
    (never written back), the edge list and the weight matrix bypass it and no later line writes them. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_arg m c main_arg0 (by decide)))),
    ((h c).2 main_arg1 (Pipeline.mem_restRefs_of main_arg1 (by decide) (by decide))).trans (W_arg m dats c main_arg1 (Or.inl rfl)),
    ((h c).2 main_arg2 (Pipeline.mem_restRefs_of main_arg2 (by decide) (by decide))).trans (W_arg m dats c main_arg2 (Or.inr rfl)),
    ((h c).1 2).trans (((dats 0 c).arrAt_in 2 rfl _).trans ((hA c 2).trans (V_arg m c main_arg3 (by decide))))⟩

/-- Hence the frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## The body -/

/-- The whole feature block, the whole weight block, the whole bias block: the three loads and the one store of the body
    go through these. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S128 := Rect.unit (s := S128) ![0] S128.size inb_S128_S128_0

/-- The output block after the body, from the three input blocks: its one store, of the rows times the transposed
    weights plus the bias, through the whole block. -/
def linBlock (x0 : Vec F S10000x128 .f32) (x1 : Vec F S128x128 .f32) (x2 : Vec F S128 .f32) : Vec F S10000x128 .f32 :=
  View.canon [⟨rX, k0_pay1 (View.ld x0 rX) (View.ld x1 rW) (View.ld x2 rB)⟩]

/-- The one store covers the block. -/
theorem linBlock_cover (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

set_option maxHeartbeats 1000000 in
/-- The body on whole staging buffers, the inputs' at contents `x0 x1 x2` and the output's at anything, runs to its end
    holding the inputs as they were and the output at `linBlock x0 x1 x2` (the load of the output block before the store
    reads whatever is there and is not used). -/
theorem sound_kernel (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (linBlock x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (linBlock_cover _)

/-! ## The region's proof data -/

/-- On core `c`: the arrays as the region finds them; after the body at point `t` each input's buffer at its block and
    the output's at `linBlock` of the three input blocks; nothing kept between points beyond the untouched scoped rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => linBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = linBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three input buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function terminates; at the end every array of the region holds what the
    proof data compute and every other unscoped buffer what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Lin

end
-- ==== Proof.FrameKernelIdeal.lean ====
/-
  The frame of `KernelIdeal`: every weakly fair execution of its entry function terminates without a fault and leaves the four
  argument arrays as they were, stated for any reading of the floats.

  The entry function is one host line (the transpose of the weight matrix), one pipelined region, and sixty-seven host
  lines after it. The region walks fifty grid points; at point `t` it is handed rows `10000·t … 10000·t + 9999` of the
  feature matrix, the whole transposed weight matrix and the whole bias vector, and it stores one `10000 × 128` block:
  the product of the feature rows with the transposed weights, plus the bias on every row. It keeps nothing between
  points and overwrites its output block whole, so what the block holds afterwards is a function of the three input
  blocks alone (`linBlock`). The lines after the region read that result and the edge list and write only buffers of
  their own: none of them writes an argument, the transposed weights or the region's result. Hence the arguments end
  unchanged, and every other buffer ends at what those lines compute from the region's exit contents.
-/
import proofs.«121206_j56573309223902_1_alg».proof.Proof.Gen.KernelIdeal.Launch
import proofs.«121206_j56573309223902_1_alg».proof.Proof.Gen.KernelIdeal.Skeleton
import proofs.«121206_j56573309223902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The buffers' contents when the region is entered: the launch contents after the one line before it (the transposed
    weights written, nothing else touched). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The sixty-seven lines after the region, in the five stretches the entry function is cut into (two of them are the
    bodies of the two calls of the select helper). -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The entry function is the line before the region, the region, and then the later lines as the region's
    continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later line touches only unscoped buffers of the core: the region's arrays or buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None of them allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A reference none of the later lines writes: each line writes its own result buffer only, so it is enough that the
    reference is none of those sixty-seven results. -/
theorem tail_not_written (b : Ref sig .tc)
    (hb : ((tailOps (F := F)).flatten).Forall fun op => Proc.devRef .tc b ∉ op.writes) :
    ∀ ops ∈ (tailOps : List (List (HloOp τ sig (Elt F)))), ∀ op ∈ ops, Proc.devRef .tc b ∉ op.writes :=
  fun ops hops op hop => (List.forall_iff_forall_mem.mp hb) op (List.mem_flatten.mpr ⟨ops, hops, hop⟩)

/-- No later line writes `b`, for `b` an argument, the transposed weights or the region's result (decided line by line). -/
theorem tail_keeps_ref (b : Ref sig .tc) (hb : b = main_arg0 ∨ b = main_arg1 ∨ b = main_arg2 ∨ b = main_arg3 ∨ b = main_v0 ∨ b = main_v1) :
    ((tailOps (F := F)).flatten).Forall fun op => Proc.devRef .tc b ∉ op.writes := by
  rcases hb with rfl | rfl | rfl | rfl | rfl | rfl
  all_goals
    simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- In particular no later line writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop w
  refine tail_not_written _ (tail_keeps_ref _ ?_) ops hops op hop
  fin_cases w
  · exact Or.inl rfl
  · exact Or.inr (Or.inr (Or.inr (Or.inr (Or.inl rfl))))
  · exact Or.inr (Or.inr (Or.inr (Or.inl rfl)))
  · exact Or.inr (Or.inr (Or.inr (Or.inr (Or.inr rfl))))

/-- The line before the region writes the transposed weights only: an argument is found as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- An argument the region does not stage (the edge list, the weight matrix) ends as launched: no later line writes it,
    and it is no array of the region. -/
theorem W_arg (dats : (p : Fin _) → (c : Dev nD) → Dat τ (Elt F) Unit ℕ (UR sig nD τ) ℕ (cfgs p) c) (c : Dev nD)
    (b : Ref sig .tc) (hb : b = main_arg1 ∨ b = main_arg2) :
    Pipeline.afterTail₀ cfgs dats 0 (V0 m) tailOps c b = m ((c : Thread nD τ).loc b) := by
  have hw : ∀ w, Pipeline.arrRef spec0 w ≠ b := by
    rcases hb with rfl | rfl <;> exact (by decide)
  have hv : b ≠ main_v0 := by
    rcases hb with rfl | rfl <;> exact (by decide)
  unfold Pipeline.afterTail₀
  rw [StableHlo.after_of_forall_not_mem (b := Proc.devRef .tc b) _ _ (List.forall_iff_forall_mem.mp
      (tail_keeps_ref b (by rcases hb with rfl | rfl; exact Or.inr (Or.inl rfl); exact Or.inr (Or.inr (Or.inl rfl))))),
    Pipeline.withArrays_of_ne _ c (V0 m c) _ b hw]
  exact V_arg m c b hv

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not (the
    weights and the bias are fetched at the first point only, and their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- At a final state where the region's arrays are at what the proof data say and every other buffer at what the later
    lines leave, the four arguments are as launched: the feature matrix and the bias are input arrays of the region
    (never written back), the edge list and the weight matrix bypass it and no later line writes them. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_arg m c main_arg0 (by decide)))),
    ((h c).2 main_arg1 (Pipeline.mem_restRefs_of main_arg1 (by decide) (by decide))).trans (W_arg m dats c main_arg1 (Or.inl rfl)),
    ((h c).2 main_arg2 (Pipeline.mem_restRefs_of main_arg2 (by decide) (by decide))).trans (W_arg m dats c main_arg2 (Or.inr rfl)),
    ((h c).1 2).trans (((dats 0 c).arrAt_in 2 rfl _).trans ((hA c 2).trans (V_arg m c main_arg3 (by decide))))⟩

/-- Hence the frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## The body -/

/-- The whole feature block, the whole weight block, the whole bias block: the three loads and the one store of the body
    go through these. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S128 := Rect.unit (s := S128) ![0] S128.size inb_S128_S128_0

/-- The output block after the body, from the three input blocks: its one store, of the rows times the transposed
    weights plus the bias, through the whole block. -/
def linBlock (x0 : Vec F S10000x128 .f32) (x1 : Vec F S128x128 .f32) (x2 : Vec F S128 .f32) : Vec F S10000x128 .f32 :=
  View.canon [⟨rX, k0_pay1 (View.ld x0 rX) (View.ld x1 rW) (View.ld x2 rB)⟩]

/-- The one store covers the block. -/
theorem linBlock_cover (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

set_option maxHeartbeats 1000000 in
/-- The body on whole staging buffers, the inputs' at contents `x0 x1 x2` and the output's at anything, runs to its end
    holding the inputs as they were and the output at `linBlock x0 x1 x2` (the load of the output block before the store
    reads whatever is there and is not used). -/
theorem sound_kernel (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (linBlock x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (linBlock_cover _)

/-! ## The region's proof data -/

/-- On core `c`: the arrays as the region finds them; after the body at point `t` each input's buffer at its block and
    the output's at `linBlock` of the three input blocks; nothing kept between points beyond the untouched scoped rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => linBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = linBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three input buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function terminates; at the end every array of the region holds what the
    proof data compute and every other unscoped buffer what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Lin

end
-- ==== Proof.KernelTail.lean ====
/-
  The idealized kernel's result, read off its run: the sixty-seven lines after the region compute the graph aggregation
  `tail` of the region's result array and the edge list, whatever the other buffers hold. The region's result is the
  only array of the region those lines read; the edge list bypasses the region and is found as launched.
-/
import proofs.«121206_j56573309223902_1_alg».proof.Proof.FrameKernelIdeal

set_option maxRecDepth 16384

noncomputable section

namespace Cert.KernelIdeal.Lin

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- What both programs do after the linear layer, as ONE function of the layer's output `lin` (one row per node) and the
    edge list `e` (row 0 the targets `row`, row 1 the sources `col`): the degree of a node is the number of edges whose
    target it is; `dis` is `1/sqrt(deg)` where the degree is positive and `0` elsewhere; edge `j` weighs
    `dis[row j] * dis[col j]`; row `j` of the layer's output is scaled by the weight of edge `j` (edges and nodes are
    equally many); and the result adds, into row `row j` of a zero matrix, the scaled row `col j`, over all edges `j`.
    A negative index is first shifted up by the number of nodes (`wrap`). -/
def tail (lin : (⟨S500000x128, .f32⟩ : BufTy).Contents (Elt F)) (e : (⟨S2x500000, .i32⟩ : BufTy).Contents (Elt F)) :
    (⟨S500000x128, .f32⟩ : BufTy).Contents (Elt F) :=
  have row : (⟨S500000, .i32⟩ : BufTy).Contents (Elt F) :=
    shapeCast _ (extractStridedSlice S1x500000 ![0, 0] e slices_S2x500000_S1x500000_0_0) shapeCasts_S1x500000_S500000
  have col : (⟨S500000, .i32⟩ : BufTy).Contents (Elt F) :=
    shapeCast _ (extractStridedSlice S1x500000 ![1, 0] e slices_S2x500000_S1x500000_1_0) shapeCasts_S1x500000_S500000
  have wrap : (⟨S500000, .i32⟩ : BufTy).Contents (Elt F) → (⟨S500000x1, .i32⟩ : BufTy).Contents (Elt F) := fun ix =>
    broadcastInDim S500000x1 ![0] bcast_S500000_S500000x1_0
      (select (cmpi .slt ix (broadcastInDim S500000 ![] bcast_S_S500000 (constantI S_ 32 0#32)))
        (addi ix (broadcastInDim S500000 ![] bcast_S_S500000 (constantI S_ 32 500000#32))) ix)
  have zeros : (⟨S500000, .f32⟩ : BufTy).Contents (Elt F) :=
    broadcastInDim S500000 ![] bcast_S_S500000 (constant (F := F) S_ .f32 0x00000000#32)
  have deg : (⟨S500000, .f32⟩ : BufTy).Contents (Elt F) :=
    Host.scatterAdd scatter_S500000_S500000x1_S500000_n_0_0_1 zeros (broadcastInDim S500000x1 ![0] bcast_S500000_S500000x1_0 row)
      (broadcastInDim S500000 ![] bcast_S_S500000 (constant (F := F) S_ .f32 0x3F800000#32))
  have pos : (⟨S500000, .i1⟩ : BufTy).Contents (Elt F) := cmpf .ogt deg zeros
  have dis : (⟨S500000, .f32⟩ : BufTy).Contents (Elt F) :=
    select pos
      (Host.rsqrt (select pos deg (broadcastInDim S500000 ![] bcast_S_S500000 (id (constant (F := F) S_ .f32 0x3F800000#32)))))
      (broadcastInDim S500000 ![] bcast_S_S500000 (id (constant (F := F) S_ .f32 0x00000000#32)))
  have norm : (⟨S500000, .f32⟩ : BufTy).Contents (Elt F) :=
    mulf (Host.gather gather_S500000_S500000x1_S500000_n_0_n_n_0_1_1 dis (wrap row))
      (Host.gather gather_S500000_S500000x1_S500000_n_0_n_n_0_1_1 dis (wrap col))
  have scaled : (⟨S500000x128, .f32⟩ : BufTy).Contents (Elt F) :=
    mulf lin (broadcastInDim S500000x128 ![0, 1] bcast_S500000x1_S500000x128_0_1 (broadcastInDim S500000x1 ![0] bcast_S500000_S500000x1_0 norm))
  Host.scatterAdd scatter_S500000x128_S500000x1_S500000x128_1_0_0_1
    (broadcastInDim S500000x128 ![] bcast_S_S500000x128 (constant (F := F) S_ .f32 0x00000000#32)) (wrap row)
    (Host.gather gather_S500000x128_S500000x1_S500000x128_1_0_n_n_0_1_1128 scaled (wrap col))

set_option maxHeartbeats 28800000 in
/-- From any buffer contents `W`, after the later lines the result buffer holds `tail` of what `W` has at the region's
    result and at the edge list. -/
theorem tail_after (W : Valuation τ sig (Elt F)) :
    StableHlo.after ((tailOps (F := F)).flatten) W (Proc.devRef .tc main_v49)
      = tail (W (Proc.devRef .tc main_v1)) (W (Proc.devRef .tc main_arg1)) := by
  simp only [tailOps, hostOps1, hostOps1_1, hostOps1_2, hostOps1_3, hostOps1_4, List.flatten_cons, List.flatten_nil, List.append_nil,
    List.cons_append, List.nil_append]
  after_results_simp <;> rfl

variable (m : (ℓ : Loc nD τ sig) → Buf (Elt F) ℓ)

/-- At the end of the run the result buffer holds `tail` of the region's final result array and the launched edge list. -/
theorem result_eq (c : Dev nD) :
    Pipeline.afterTail₀ cfgs (dats m) 0 (V0 m) tailOps c main_v49
      = tail ((dats m 0 c).arrAt 3 cfg0.N) (m ((c : Thread nD τ).loc main_arg1)) := by
  unfold Pipeline.afterTail₀
  rw [tail_after]
  refine congrArg₂ tail ?_ ?_
  · exact Pipeline.withArrays_arr spec0 launch0.win.arr_inj c _ _ 3
  · exact (Pipeline.withArrays_of_ne _ c (V0 m c) _ main_arg1 (by decide)).trans (V_arg m c main_arg1 (by decide))

end Cert.KernelIdeal.Lin

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.KernelLinear.lean ====
/-
  The region's result array after the run, at the ideal values: the dense layer of the whole feature matrix, the
  transposed weights and the bias,  entry (r, n) = sum_k x(r, k) * wT(k, n) + b(n).

  Point `t` of the grid writes back rows `10000·t … 10000·t + 9999`. What it writes is the dense layer of ITS feature rows
  (the body narrows both operands to bf16, which is the identity at the ideal values, multiplies into a zero accumulator
  and adds the bias laid along every row), and an entry of a dense layer depends on its own row of the features only: so
  block `t` of the written array is block `t` of the dense layer of all rows. The fifty blocks tile the array, row `r`
  lying in block `r / 10000`, hence the array is that layer everywhere.
-/
import proofs.«121206_j56573309223902_1_alg».proof.Proof.FrameKernelIdeal
import proofs.«121206_j56573309223902_1_alg».proof.Proof.LibDense
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Lin

open Cert.KernelIdeal Cert.KernelIdeal.Gen Cert.LibDense
open Idealize.ShloMosaic Idealize.ShloMosaic.TcCoe Idealize.ShloMosaic.ValueIdx Idealize.SL.Sem Idealize.ShloMosaic.StableHlo
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a <;> rfl

/-! ## One block -/

/-- The body's arithmetic on its three loaded blocks is the dense layer of those blocks (the cast of the weight block to
    its own shape is the identity). -/
theorem payload_eq (x0 : FVec Ideal S10000x128 .f32) (x1 : FVec Ideal S128x128 .f32) (x2 : FVec Ideal S128 .f32) :
    k0_pay1 (F := Ideal) x0 x1 x2 = dense 10000 128 128 x0 x1 x2 := by
  show addf (matmul dot_S10000x128_S128x128_S10000x128_1_0_0_1_n_n none (truncf .bf16 x0 bitsLt_bf16_f32)
      (truncf .bf16 (shapeCast S128x128 x1 shapeCasts_S128x128_S128x128) bitsLt_bf16_f32) (constant (F := Ideal) S10000x128 .f32 0x00000000#32))
      (broadcastTo S10000x128 (shapeCast S1x128 x2 shapeCasts_S128_S1x128) broadcasts_S1x128_S10000x128) = _
  rw [shapeCast_self]
  exact dense_kernel (A := 10000) (K := 128) (N := 128) x0 x1 x2 bitsLt_bf16_f32 shapeCasts_S128_S1x128 broadcasts_S1x128_S10000x128

/-- What the body leaves in the output block is the dense layer of the three input blocks. -/
theorem linBlock_eq (x0 : FVec Ideal S10000x128 .f32) (x1 : FVec Ideal S128x128 .f32) (x2 : FVec Ideal S128 .f32) :
    linBlock (F := Ideal) x0 x1 x2 = dense 10000 128 128 x0 x1 x2 := by
  unfold linBlock
  rw [View.canon_unit_zero zeros2]
  simp only [View.ld_unit_zero (S := S10000x128) zeros2, View.ld_unit_zero (S := S128x128) zeros2, View.ld_unit_zero (S := S128) zeros1]
  exact payload_eq x0 x1 x2

/-- An entry of the dense layer of a block of rows is the entry of the dense layer of all rows at the matching row, when
    the block's feature row is that row and the weights and the bias are read at the same places. -/
theorem dense_of_blocks (X : FVec Ideal S500000x128 .f32) (W : FVec Ideal S128x128 .f32) (B : FVec Ideal S128 .f32)
    (x0 : FVec Ideal S10000x128 .f32) (x1 : FVec Ideal S128x128 .f32) (x2 : FVec Ideal S128 .f32)
    (j : S10000x128.Idx) (i : S500000x128.Idx)
    (h0 : ∀ k : Fin 128, x0 (ix2 (j 0 : Fin 10000) k) = X (ix2 (i 0 : Fin 500000) k))
    (h1 : ∀ k : Fin 128, x1 (ix2 k (j 1 : Fin 128)) = W (ix2 k (i 1 : Fin 128)))
    (h2 : x2 (ix1 (j 1 : Fin 128)) = B (ix1 (i 1 : Fin 128))) :
    dense 10000 128 128 x0 x1 x2 j = dense 500000 128 128 X W B i := by
  show (∑ k : Fin 128, x0 (ix2 (j 0 : Fin 10000) k) * x1 (ix2 k (j 1 : Fin 128))) + x2 (ix1 (j 1 : Fin 128))
     = (∑ k : Fin 128, X (ix2 (i 0 : Fin 500000) k) * W (ix2 k (i 1 : Fin 128))) + B (ix1 (i 1 : Fin 128))
  rw [h2, Finset.sum_congr rfl fun k _ => by rw [h0 k, h1 k]]

/-! ## The blocks' places -/

/-- The printed index maps over the grid: the feature block and the output block of point `t` are both block row `t`;
    the weights and the bias are always their one whole block. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 :=
  (by decide +kernel : ∀ t : Fin grid0.N, _)

/-- Every block row is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

variable (m : (ℓ : Loc nD τ sig) → Buf (Elt Ideal) ℓ)

/-- What point `t` writes back is block `t` of the dense layer of the arrays the region finds. -/
theorem flushed_eq (c : Dev nD) (t : Fin cfg0.N) :
    (dats m 0 c).flushed 3 t = ((cfg0.win 3).blk t).view.read (Elt Ideal)
      (dense 500000 128 128 (V m c main_arg0) (V m c main_v0) (V m c main_arg3)) := by
  show (cfg0.win 3).cut (grid0.coords t) ((dats m 0 c).after 3 t) = _
  rw [after0_3, linBlock_eq]
  obtain ⟨e0, e1, e2, e3, e4, e5⟩ := idx_facts t
  funext j
  show dense 10000 128 128 (iblk m c 0 t) (iblk m c 1 t) (iblk m c 2 t) j
      = dense 500000 128 128 (V m c main_arg0) (V m c main_v0) (V m c main_arg3) (((cfg0.win 3).blk t).view.emb j)
  refine dense_of_blocks (V m c main_arg0) (V m c main_v0) (V m c main_arg3) (iblk m c 0 t) (iblk m c 1 t) (iblk m c 2 t) j
    (((cfg0.win 3).blk t).view.emb j) (fun k => ?_) (fun k => ?_) ?_
  · show V m c main_arg0 (((cfg0.win 0).blk t).view.emb (ix2 (j 0 : Fin 10000) k))
        = V m c main_arg0 (ix2 ((((cfg0.win 3).blk t).view.emb j) 0 : Fin 500000) k)
    refine congrArg (V m c main_arg0) ?_
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · show V m c main_v0 (((cfg0.win 1).blk t).view.emb (ix2 k (j 1 : Fin 128)))
        = V m c main_v0 (ix2 k ((((cfg0.win 3).blk t).view.emb j) 1 : Fin 128))
    refine congrArg (V m c main_v0) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V m c main_arg3 (((cfg0.win 2).blk t).view.emb (ix1 (j 1 : Fin 128)))
        = V m c main_arg3 (ix1 ((((cfg0.win 3).blk t).view.emb j) 1 : Fin 128))
    refine congrArg (V m c main_arg3) ?_
    funext a; apply Fin.ext
    match a with
    | ⟨0, _⟩ => show win0_2.index t (0 : Fin 1) * 128 + 1 * (j 1).val = win0_3.index t (1 : Fin 2) * 128 + 1 * (j 1).val; omega

/-- An index of the result array is in point `t`'s block iff each coordinate is in the block's range on its axis. -/
theorem mem_blk (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Every index of the result array is written back by some point: row `r` by point `r / 10000`. -/
theorem covered (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The region finds the transposed weights in the buffer the one earlier line wrote. -/
theorem V_weights (c : Dev nD) :
    V m c main_v0 = transpose S128x128 [1, 0] (m ((c : Thread nD τ).loc main_arg2)) transposes_S128x128_S128x128_1_0 := by
  show StableHlo.after hostOps0 (fun b => m (c, b)) (Proc.devRef .tc main_v0) = _
  after_results

/-- The result array after the run: the dense layer of the launched features, the transposed launched weights and the
    launched bias. -/
theorem final (c : Dev nD) : (dats m 0 c).arrAt 3 cfg0.N
    = dense 500000 128 128 (m ((c : Thread nD τ).loc main_arg0))
        (transpose S128x128 [1, 0] (m ((c : Thread nD τ).loc main_arg2)) transposes_S128x128_S128x128_1_0)
        (m ((c : Thread nD τ).loc main_arg3)) := by
  rw [← V_weights m c, ← V_arg m c main_arg0 (by decide), ← V_arg m c main_arg3 (by decide)]
  exact (dats m 0 c).arrAt_eq_of_cover 3 _ (fun t _ => flushed_eq m c t) covered

end Cert.KernelIdeal.Lin

end
-- ==== Proof.KernelResult.lean ====
/-
  The idealized kernel's run with its result named: the result buffer ends at the graph aggregation `tail` of the dense
  layer of the launched features, transposed weights and bias, and of the launched edge list; the arguments end unchanged.
-/
import proofs.«121206_j56573309223902_1_alg».proof.Proof.KernelTail
import proofs.«121206_j56573309223902_1_alg».proof.Proof.KernelLinear

noncomputable section

namespace Cert.KernelIdeal.Lin

open Cert.KernelIdeal Cert.KernelIdeal.Gen Cert.LibDense
open Idealize.ShloMosaic Idealize.ShloMosaic.TcCoe Idealize.SL.Sem

variable (m : (ℓ : Loc nD τ sig) → Buf (Elt Ideal) ℓ) (ρ : Dev nD → PrngReg)

/-- Every weakly fair execution of the idealized kernel terminates; the result buffer (no array of the region: it is
    what the last later line writes) ends at `tail` of the region's result array — the dense layer — and the edge list. -/
theorem run_value : θ_run defs (onTc (τ := τ) (main (F := Ideal))) ⟨m, fun _ => 0, ρ⟩ (fun r => ∀ c : Dev nD,
      r.2.mem ((c.tc : Thread nD τ).loc main_v49)
        = tail (dense 500000 128 128 (m ((c.tc : Thread nD τ).loc main_arg0))
            (transpose S128x128 [1, 0] (m ((c.tc : Thread nD τ).loc main_arg2)) transposes_S128x128_S128x128_1_0)
            (m ((c.tc : Thread nD τ).loc main_arg3))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v49 (Pipeline.mem_restRefs_of main_v49 (by decide) (by decide))).trans
        ((result_eq m c).trans (congrArg (fun a => tail a (m ((c.tc : Thread nD τ).loc main_arg1))) (final m c))),
      args_kept m (dats m) (A_eq m) r h c⟩) (run_main m ρ)

end Cert.KernelIdeal.Lin

end
-- ==== Proof.RefResult.lean ====
/-
  The reference program's run, read: it is seventy-two host operations in a row (the two calls of the select helper
  inlined at their call sites), so every weakly fair execution terminates, the arguments stay as launched, and the
  result buffer ends at the operations' composed value. That value is the linear layer `x · Wᵀ + b` (a dot_general
  against the transposed weights, the bias broadcast to one row and then down the rows) followed by the graph
  aggregation `tail`, which depends on the layer's output and the edge list only.
-/
import proofs.«121206_j56573309223902_1_alg».proof.Proof.Gen.ReferenceIdeal
import proofs.«121206_j56573309223902_1_alg».proof.Proof.LibDense
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- What both programs do after the linear layer, as ONE function of the layer's output `lin` (one row per node) and the
    edge list `e` (row 0 the targets `row`, row 1 the sources `col`): the degree of a node is the number of edges whose
    target it is; `dis` is `1/sqrt(deg)` where the degree is positive and `0` elsewhere; edge `j` weighs
    `dis[row j] * dis[col j]`; row `j` of the layer's output is scaled by the weight of edge `j` (edges and nodes are
    equally many); and the result adds, into row `row j` of a zero matrix, the scaled row `col j`, over all edges `j`.
    A negative index is first shifted up by the number of nodes (`wrap`). -/
def tail (lin : (⟨S500000x128, .f32⟩ : BufTy).Contents (Elt F)) (e : (⟨S2x500000, .i32⟩ : BufTy).Contents (Elt F)) :
    (⟨S500000x128, .f32⟩ : BufTy).Contents (Elt F) :=
  have row : (⟨S500000, .i32⟩ : BufTy).Contents (Elt F) :=
    shapeCast _ (extractStridedSlice S1x500000 ![0, 0] e slices_S2x500000_S1x500000_0_0) shapeCasts_S1x500000_S500000
  have col : (⟨S500000, .i32⟩ : BufTy).Contents (Elt F) :=
    shapeCast _ (extractStridedSlice S1x500000 ![1, 0] e slices_S2x500000_S1x500000_1_0) shapeCasts_S1x500000_S500000
  have wrap : (⟨S500000, .i32⟩ : BufTy).Contents (Elt F) → (⟨S500000x1, .i32⟩ : BufTy).Contents (Elt F) := fun ix =>
    broadcastInDim S500000x1 ![0] bcast_S500000_S500000x1_0
      (select (cmpi .slt ix (broadcastInDim S500000 ![] bcast_S_S500000 (constantI S_ 32 0#32)))
        (addi ix (broadcastInDim S500000 ![] bcast_S_S500000 (constantI S_ 32 500000#32))) ix)
  have zeros : (⟨S500000, .f32⟩ : BufTy).Contents (Elt F) :=
    broadcastInDim S500000 ![] bcast_S_S500000 (constant (F := F) S_ .f32 0x00000000#32)
  have deg : (⟨S500000, .f32⟩ : BufTy).Contents (Elt F) :=
    Host.scatterAdd scatter_S500000_S500000x1_S500000_n_0_0_1 zeros (broadcastInDim S500000x1 ![0] bcast_S500000_S500000x1_0 row)
      (broadcastInDim S500000 ![] bcast_S_S500000 (constant (F := F) S_ .f32 0x3F800000#32))
  have pos : (⟨S500000, .i1⟩ : BufTy).Contents (Elt F) := cmpf .ogt deg zeros
  have dis : (⟨S500000, .f32⟩ : BufTy).Contents (Elt F) :=
    select pos
      (Host.rsqrt (select pos deg (broadcastInDim S500000 ![] bcast_S_S500000 (id (constant (F := F) S_ .f32 0x3F800000#32)))))
      (broadcastInDim S500000 ![] bcast_S_S500000 (id (constant (F := F) S_ .f32 0x00000000#32)))
  have norm : (⟨S500000, .f32⟩ : BufTy).Contents (Elt F) :=
    mulf (Host.gather gather_S500000_S500000x1_S500000_n_0_n_n_0_1_1 dis (wrap row))
      (Host.gather gather_S500000_S500000x1_S500000_n_0_n_n_0_1_1 dis (wrap col))
  have scaled : (⟨S500000x128, .f32⟩ : BufTy).Contents (Elt F) :=
    mulf lin (broadcastInDim S500000x128 ![0, 1] bcast_S500000x1_S500000x128_0_1 (broadcastInDim S500000x1 ![0] bcast_S500000_S500000x1_0 norm))
  Host.scatterAdd scatter_S500000x128_S500000x1_S500000x128_1_0_0_1
    (broadcastInDim S500000x128 ![] bcast_S_S500000x128 (constant (F := F) S_ .f32 0x00000000#32)) (wrap row)
    (Host.gather gather_S500000x128_S500000x1_S500000x128_1_0_n_n_0_1_1128 scaled (wrap col))

/-- The reference's linear layer: the features times the transposed weights, plus the bias on every row. -/
def linear (x : (⟨S500000x128, .f32⟩ : BufTy).Contents (Elt F)) (w : (⟨S128x128, .f32⟩ : BufTy).Contents (Elt F))
    (b : (⟨S128, .f32⟩ : BufTy).Contents (Elt F)) : (⟨S500000x128, .f32⟩ : BufTy).Contents (Elt F) :=
  addf (Host.dotGeneral dot_S500000x128_S128x128_S500000x128_1_0_0_1_n_n none x (transpose S128x128 [1, 0] w transposes_S128x128_S128x128_1_0))
    (broadcastInDim S500000x128 ![0, 1] bcast_S1x128_S500000x128_0_1 (broadcastInDim S1x128 ![1] bcast_S128_S1x128_1 b))

/-- At the ideal values the reference's linear layer is the dense layer of the features, the transposed weights and the
    bias: entry (r, n) is the sum over k of x(r, k) * wT(k, n), plus b(n). -/
theorem linear_eq_dense (x : FVec Ideal S500000x128 .f32) (w : FVec Ideal S128x128 .f32) (b : FVec Ideal S128 .f32) :
    linear (F := Ideal) x w b
      = Cert.LibDense.dense 500000 128 128 x (transpose S128x128 [1, 0] w transposes_S128x128_S128x128_1_0) b := by
  unfold linear
  exact Cert.LibDense.dense_host (A := 500000) (K := 128) (N := 128) x (transpose S128x128 [1, 0] w transposes_S128x128_S128x128_1_0) b
    bcast_S128_S1x128_1 bcast_S1x128_S500000x128_0_1

/-- The entry function's seventy-two operations, in order. -/
abbrev ops : List (HloOp τ sig (Elt F)) :=
  [ StableHlo.unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000,
    StableHlo.unary main_arg2 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg3 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S500000x128 ![0, 1] bcast_S1x128_S500000x128_0_1 : (⟨S1x128, .f32⟩ : BufTy).Contents (Elt F) → (⟨S500000x128, .f32⟩ : BufTy).Contents (Elt F)),
    StableHlo.binary main_v5 main_v7 main_v8 (addf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x3F800000#32),
    StableHlo.unary main_cst main_v9 (broadcastInDim S500000 ![] bcast_S_S500000 : (⟨S_, .f32⟩ : BufTy).Contents (Elt F) → (⟨S500000, .f32⟩ : BufTy).Contents (Elt F)),
    StableHlo.nullary main_cst_0 (constant S_ .f32 0x00000000#32),
    StableHlo.unary main_cst_0 main_v10 (broadcastInDim S500000 ![] bcast_S_S500000 : (⟨S_, .f32⟩ : BufTy).Contents (Elt F) → (⟨S500000, .f32⟩ : BufTy).Contents (Elt F)),
    StableHlo.unary main_v1 main_v11 (broadcastInDim S500000x1 ![0] bcast_S500000_S500000x1_0 : (⟨S500000, .i32⟩ : BufTy).Contents (Elt F) → (⟨S500000x1, .i32⟩ : BufTy).Contents (Elt F)),
    StableHlo.ternary main_v10 main_v11 main_v9 main_v12 ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)),
    StableHlo.nullary main_cst_1 (constant S_ .f32 0x00000000#32),
    StableHlo.unary main_cst_1 main_v13 (broadcastInDim S500000 ![] bcast_S_S500000 : (⟨S_, .f32⟩ : BufTy).Contents (Elt F) → (⟨S500000, .f32⟩ : BufTy).Contents (Elt F)),
    StableHlo.binary main_v12 main_v13 main_v14 (cmpf .ogt : (⟨S500000, .f32⟩ : BufTy).Contents (Elt F) → (⟨S500000, .f32⟩ : BufTy).Contents (Elt F) → (⟨S500000, .i1⟩ : BufTy).Contents (Elt F)),
    StableHlo.nullary main_cst_2 (constant S_ .f32 0x00000000#32),
    StableHlo.unary main_cst_2 main_v15 (broadcastInDim S500000 ![] bcast_S_S500000 : (⟨S_, .f32⟩ : BufTy).Contents (Elt F) → (⟨S500000, .f32⟩ : BufTy).Contents (Elt F)),
    StableHlo.binary main_v12 main_v15 main_v16 (cmpf .ogt : (⟨S500000, .f32⟩ : BufTy).Contents (Elt F) → (⟨S500000, .f32⟩ : BufTy).Contents (Elt F) → (⟨S500000, .i1⟩ : BufTy).Contents (Elt F)),
    StableHlo.nullary main_cst_3 (constant S_ .f32 0x3F800000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S500000, .f32⟩) (broadcastInDim S500000 ![] bcast_S_S500000),
    StableHlo.TRef.ternary (.of main_v16 : StableHlo.TRef sig ⟨S500000, .i1⟩) (.of main_v12 : StableHlo.TRef sig ⟨S500000, .f32⟩) (.of main_call0_v1 : StableHlo.TRef sig ⟨S500000, .f32⟩) (.of main_v17 : StableHlo.TRef sig ⟨S500000, .f32⟩) select,
    StableHlo.unary main_v17 main_v18 (Host.rsqrt : (⟨S500000, .f32⟩ : BufTy).Contents (Elt F) → (⟨S500000, .f32⟩ : BufTy).Contents (Elt F)),
    StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S500000, .f32⟩) (broadcastInDim S500000 ![] bcast_S_S500000),
    StableHlo.TRef.ternary (.of main_v14 : StableHlo.TRef sig ⟨S500000, .i1⟩) (.of main_v18 : StableHlo.TRef sig ⟨S500000, .f32⟩) (.of main_call1_v1 : StableHlo.TRef sig ⟨S500000, .f32⟩) (.of main_v19 : StableHlo.TRef sig ⟨S500000, .f32⟩) select,
    StableHlo.nullary main_c (constantI S_ 32 0#32),
    StableHlo.unary main_c main_v20 (broadcastInDim S500000 ![] bcast_S_S500000 : (⟨S_, .i32⟩ : BufTy).Contents (Elt F) → (⟨S500000, .i32⟩ : BufTy).Contents (Elt F)),
    StableHlo.binary main_v1 main_v20 main_v21 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 500000#32),
    StableHlo.unary main_c_5 main_v22 (broadcastInDim S500000 ![] bcast_S_S500000 : (⟨S_, .i32⟩ : BufTy).Contents (Elt F) → (⟨S500000, .i32⟩ : BufTy).Contents (Elt F)),
    StableHlo.binary main_v1 main_v22 main_v23 (addi : (⟨S500000, .i32⟩ : BufTy).Contents (Elt F) → (⟨S500000, .i32⟩ : BufTy).Contents (Elt F) → (⟨S500000, .i32⟩ : BufTy).Contents (Elt F)),
    StableHlo.ternary main_v21 main_v23 main_v1 main_v24 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v24 main_v25 (broadcastInDim S500000x1 ![0] bcast_S500000_S500000x1_0 : (⟨S500000, .i32⟩ : BufTy).Contents (Elt F) → (⟨S500000x1, .i32⟩ : BufTy).Contents (Elt F)),
    StableHlo.binary main_v19 main_v25 main_v26 ((fun x i => Host.gather gather_S500000_S500000x1_S500000_n_0_n_n_0_1_1 x i) : (⟨S500000, .f32⟩ : BufTy).Contents (Elt F) → (⟨S500000x1, .i32⟩ : BufTy).Contents (Elt F) → (⟨S500000, .f32⟩ : BufTy).Contents (Elt F)),
    StableHlo.nullary main_c_6 (constantI S_ 32 0#32),
    StableHlo.unary main_c_6 main_v27 (broadcastInDim S500000 ![] bcast_S_S500000 : (⟨S_, .i32⟩ : BufTy).Contents (Elt F) → (⟨S500000, .i32⟩ : BufTy).Contents (Elt F)),
    StableHlo.binary main_v3 main_v27 main_v28 (cmpi .slt : (⟨S500000, .i32⟩ : BufTy).Contents (Elt F) → (⟨S500000, .i32⟩ : BufTy).Contents (Elt F) → (⟨S500000, .i1⟩ : BufTy).Contents (Elt F)),
    StableHlo.nullary main_c_7 (constantI S_ 32 500000#32),
    StableHlo.unary main_c_7 main_v29 (broadcastInDim S500000 ![] bcast_S_S500000 : (⟨S_, .i32⟩ : BufTy).Contents (Elt F) → (⟨S500000, .i32⟩ : BufTy).Contents (Elt F)),
    StableHlo.binary main_v3 main_v29 main_v30 (addi : (⟨S500000, .i32⟩ : BufTy).Contents (Elt F) → (⟨S500000, .i32⟩ : BufTy).Contents (Elt F) → (⟨S500000, .i32⟩ : BufTy).Contents (Elt F)),
    StableHlo.ternary main_v28 main_v30 main_v3 main_v31 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v31 main_v32 (broadcastInDim S500000x1 ![0] bcast_S500000_S500000x1_0 : (⟨S500000, .i32⟩ : BufTy).Contents (Elt F) → (⟨S500000x1, .i32⟩ : BufTy).Contents (Elt F)),
    StableHlo.binary main_v19 main_v32 main_v33 ((fun x i => Host.gather gather_S500000_S500000x1_S500000_n_0_n_n_0_1_1 x i) : (⟨S500000, .f32⟩ : BufTy).Contents (Elt F) → (⟨S500000x1, .i32⟩ : BufTy).Contents (Elt F) → (⟨S500000, .f32⟩ : BufTy).Contents (Elt F)),
    StableHlo.binary main_v26 main_v33 main_v34 (mulf : (⟨S500000, .f32⟩ : BufTy).Contents (Elt F) → (⟨S500000, .f32⟩ : BufTy).Contents (Elt F) → (⟨S500000, .f32⟩ : BufTy).Contents (Elt F)),
    StableHlo.unary main_v34 main_v35 (broadcastInDim S500000x1 ![0] bcast_S500000_S500000x1_0 : (⟨S500000, .f32⟩ : BufTy).Contents (Elt F) → (⟨S500000x1, .f32⟩ : BufTy).Contents (Elt F)),
    StableHlo.unary main_v35 main_v36 (broadcastInDim S500000x128 ![0, 1] bcast_S500000x1_S500000x128_0_1 : (⟨S500000x1, .f32⟩ : BufTy).Contents (Elt F) → (⟨S500000x128, .f32⟩ : BufTy).Contents (Elt F)),
    StableHlo.binary main_v8 main_v36 main_v37 (mulf : (⟨S500000x128, .f32⟩ : BufTy).Contents (Elt F) → (⟨S500000x128, .f32⟩ : BufTy).Contents (Elt F) → (⟨S500000x128, .f32⟩ : BufTy).Contents (Elt F)),
    StableHlo.nullary main_cst_8 (constant S_ .f32 0x00000000#32),
    StableHlo.unary main_cst_8 main_v38 (broadcastInDim S500000x128 ![] bcast_S_S500000x128 : (⟨S_, .f32⟩ : BufTy).Contents (Elt F) → (⟨S500000x128, .f32⟩ : BufTy).Contents (Elt F)),
    StableHlo.nullary main_c_9 (constantI S_ 32 0#32),
    StableHlo.unary main_c_9 main_v39 (broadcastInDim S500000 ![] bcast_S_S500000 : (⟨S_, .i32⟩ : BufTy).Contents (Elt F) → (⟨S500000, .i32⟩ : BufTy).Contents (Elt F)),
    StableHlo.binary main_v3 main_v39 main_v40 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 500000#32),
    StableHlo.unary main_c_10 main_v41 (broadcastInDim S500000 ![] bcast_S_S500000 : (⟨S_, .i32⟩ : BufTy).Contents (Elt F) → (⟨S500000, .i32⟩ : BufTy).Contents (Elt F)),
    StableHlo.binary main_v3 main_v41 main_v42 (addi : (⟨S500000, .i32⟩ : BufTy).Contents (Elt F) → (⟨S500000, .i32⟩ : BufTy).Contents (Elt F) → (⟨S500000, .i32⟩ : BufTy).Contents (Elt F)),
    StableHlo.ternary main_v40 main_v42 main_v3 main_v43 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v43 main_v44 (broadcastInDim S500000x1 ![0] bcast_S500000_S500000x1_0 : (⟨S500000, .i32⟩ : BufTy).Contents (Elt F) → (⟨S500000x1, .i32⟩ : BufTy).Contents (Elt F)),
    StableHlo.binary main_v37 main_v44 main_v45 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_c_11 (constantI S_ 32 0#32),
    StableHlo.unary main_c_11 main_v46 (broadcastInDim S500000 ![] bcast_S_S500000 : (⟨S_, .i32⟩ : BufTy).Contents (Elt F) → (⟨S500000, .i32⟩ : BufTy).Contents (Elt F)),
    StableHlo.binary main_v1 main_v46 main_v47 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 500000#32),
    StableHlo.unary main_c_12 main_v48 (broadcastInDim S500000 ![] bcast_S_S500000 : (⟨S_, .i32⟩ : BufTy).Contents (Elt F) → (⟨S500000, .i32⟩ : BufTy).Contents (Elt F)),
    StableHlo.binary main_v1 main_v48 main_v49 (addi : (⟨S500000, .i32⟩ : BufTy).Contents (Elt F) → (⟨S500000, .i32⟩ : BufTy).Contents (Elt F) → (⟨S500000, .i32⟩ : BufTy).Contents (Elt F)),
    StableHlo.ternary main_v47 main_v49 main_v1 main_v50 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v50 main_v51 (broadcastInDim S500000x1 ![0] bcast_S500000_S500000x1_0 : (⟨S500000, .i32⟩ : BufTy).Contents (Elt F) → (⟨S500000x1, .i32⟩ : BufTy).Contents (Elt F)),
    StableHlo.ternary main_v38 main_v51 main_v45 main_v52 ((fun x i u => Host.scatterAdd scatter_S500000x128_S500000x1_S500000x128_1_0_0_1 x i u) : (⟨S500000x128, .f32⟩ : BufTy).Contents (Elt F) → (⟨S500000x1, .i32⟩ : BufTy).Contents (Elt F) → (⟨S500000x128, .f32⟩ : BufTy).Contents (Elt F) → (⟨S500000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

set_option maxRecDepth 8192 in
set_option maxHeartbeats 28800000 in
/-- Every weakly fair execution of the reference terminates with the result at `tail` of its linear layer and the edge
    list, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = tail (linear (m ((c.tc : Thread nD τ).loc main_arg0)) (m ((c.tc : Thread nD τ).loc main_arg2)) (m ((c.tc : Thread nD τ).loc main_arg3)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v52).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.lean ====
/-
  The certificate of a graph-convolution layer: a kernel that computes the linear layer `x · Wᵀ + b` block of rows by
  block of rows on the matrix unit (operands narrowed to bf16, a zero accumulator, the bias laid along every row) and
  then, on the host, normalises and aggregates over the edges, against a reference that computes the same linear layer
  with one dot_general and runs the very same host lines.

  Frames. The kernel's entry function is one host line, one pipelined region of fifty points, and sixty-seven host lines;
  it terminates without a fault and leaves its arguments alone, at the machine words and at the ideal values alike
  (Proof/FrameKernel, Proof/FrameKernelIdeal). The reference is seventy-two host operations in a row (Proof/RefResult).

  Values, at the ideal values (extended reals, exact operations, format changes the identity). The region's result
  array is the dense layer of all rows: each point writes the dense layer of its own rows, an entry of a dense layer
  depends on its own row only, and the fifty blocks tile the array (Proof/KernelLinear, over Proof/LibDense). The
  reference's dot_general plus broadcast bias is the same dense layer: both are  sum_k x(r, k) * wT(k, n) + b(n)  with the
  sum in the same order, so no algebra of the extended reals beyond reading the two spellings is needed, and the
  precondition (finite inputs) is never opened. After the linear layer both programs apply one and the same function
  `tail` of the layer's output and the edge list (degrees by a scatter-add of ones, inverse square roots where positive,
  edge weights by two gathers, scaled rows, a final scatter-add). The ideal pass rewrote nothing, so `preserves` is trivial.
-/
import proofs.«121206_j56573309223902_1_alg».proof.Defs
import proofs.«121206_j56573309223902_1_alg».proof.Proof.Gen.Kernel
import proofs.«121206_j56573309223902_1_alg».proof.Proof.Gen.KernelIdeal
import proofs.«121206_j56573309223902_1_alg».proof.Proof.Gen.ReferenceIdeal
import proofs.«121206_j56573309223902_1_alg».proof.Proof.Gen.Pre_finite_inputs
import proofs.«121206_j56573309223902_1_alg».proof.Proof.FrameKernel
import proofs.«121206_j56573309223902_1_alg».proof.Proof.KernelResult
import proofs.«121206_j56573309223902_1_alg».proof.Proof.RefResult

noncomputable section

namespace Cert.Proof

open Idealize.ShloMosaic Idealize.SL.Sem

/-- The graph aggregation is spelt once per program, over each program's own shape facts; the two spellings are one
    function. -/
theorem tails_agree (lin : (⟨Cert.KernelIdeal.S500000x128, .f32⟩ : BufTy).Contents (Elt Ideal))
    (e : (⟨Cert.KernelIdeal.S2x500000, .i32⟩ : BufTy).Contents (Elt Ideal)) :
    Cert.KernelIdeal.Lin.tail (F := Ideal) lin e = Cert.ReferenceIdeal.RefValue.tail (F := Ideal) lin e := rfl

theorem frame_kernel : Cert.frame_Kernel := fun m ρ _ => Cert.Kernel.Lin.frame m ρ
theorem frame_kernelIdeal : Cert.frame_KernelIdeal := fun m ρ _ => Cert.KernelIdeal.Lin.frame m ρ
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass applied no rewrite. -/
theorem preserves : Cert.preserves_Kernel_KernelIdeal := trivial

/-- From memories that agree on the arguments both programs end with `tail` of the dense layer of the features, the
    transposed weights and the bias, and of the edge list. -/
theorem algebraic : Cert.algebraic_KernelIdeal_ReferenceIdeal := by
  intro m ρ m' ρ' _ hagree
  refine ⟨_, Cert.KernelIdeal.Lin.run_value m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2, Cert.ReferenceIdeal.RefValue.linear_eq_dense]
  exact (tails_agree _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
